-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x4 : Shape := ⟨2, ![8000000, 4]⟩
abbrev S_ : Shape := ⟨0, ![]⟩

class Facts : Prop where
  bcast_S_S8000000x4 : S_.BroadcastsInDim S8000000x4 (![] : Fin 0 → Fin S8000000x4.rank)
  reducesTo_S8000000x4_S_d0_1 : S8000000x4.ReducesTo [0, 1] S_
  h_S_ : 0 < S_.numel

variable [Facts]

def fn {F : FTy → Type} [FloatOps F] (main_arg0 : FVec F S8000000x4 .f32) : IVec S_ 1 :=
  let main_v0 : FVec F S8000000x4 .f32 := Host.absf main_arg0
  let main_cst : FVec F S_ .f32 := constant S_ .f32 0x7F800000#32
  let main_v1 : FVec F S8000000x4 .f32 := broadcastInDim S8000000x4 ![] bcast_S_S8000000x4 main_cst
  let main_v2 : IVec S8000000x4 1 := cmpf .olt main_v0 main_v1
  let main_c : IVec S_ 1 := constantI S_ 1 1#1
  let main_v3 : IVec S_ 1 := (fun x v => Host.reduce IntOp.andi x v reducesTo_S8000000x4_S_d0_1 h_S_) main_v2 main_c
  main_v3
-- ==== Kernel.lean ====
abbrev S8000000x4 : Shape := ⟨2, ![8000000, 4]⟩
abbrev S4x8000000 : Shape := ⟨2, ![4, 8000000]⟩
abbrev S3x8000000 : Shape := ⟨2, ![3, 8000000]⟩
abbrev S4x320000 : Shape := ⟨2, ![4, 320000]⟩
abbrev S3x320000 : Shape := ⟨2, ![3, 320000]⟩
abbrev S1x320000 : Shape := ⟨2, ![1, 320000]⟩
abbrev S320000 : Shape := ⟨1, ![320000]⟩

abbrev nBuf : Space → Nat
  | .hbm => 3
  | .vmem => 4
  | .smem => 0
  | _ => 0

abbrev bufTy : (tb : Table) → Fin (tcTables nBuf tb) → BufTy
  | .hbm, ⟨0, _⟩ => ⟨S8000000x4, .f32⟩
  | .hbm, ⟨1, _⟩ => ⟨S4x8000000, .f32⟩
  | .hbm, ⟨2, _⟩ => ⟨S3x8000000, .i32⟩
  | .local _ .vmem, ⟨0, _⟩ => ⟨S4x320000, .f32⟩
  | .local _ .vmem, ⟨1, _⟩ => ⟨S4x320000, .f32⟩
  | .local _ .vmem, ⟨2, _⟩ => ⟨S3x320000, .i32⟩
  | .local _ .vmem, ⟨3, _⟩ => ⟨S3x320000, .i32⟩
  | _, _ => ⟨S8000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x320000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x320000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S8000000x4_S4x8000000_1_0 : S8000000x4.Transposes [1, 0] S4x8000000
  inb_S4x320000_S1x320000_0_0 : ∀ a, (![0, 0] : Fin 2 → Nat) a + S1x320000.size a ≤ S4x320000.size a
  h_S1x320000 : 0 < S1x320000.numel
  shapeCasts_S1x320000_S320000 : S1x320000.ShapeCasts S320000
  inb_S4x320000_S1x320000_1_0 : ∀ a, (![1, 0] : Fin 2 → Nat) a + S1x320000.size a ≤ S4x320000.size a
  inb_S4x320000_S1x320000_2_0 : ∀ a, (![2, 0] : Fin 2 → Nat) a + S1x320000.size a ≤ S4x320000.size a
  inb_S3x320000_S1x320000_0_0 : ∀ a, (![0, 0] : Fin 2 → Nat) a + S1x320000.size a ≤ S3x320000.size a
  shapeCasts_S320000_S1x320000 : S320000.ShapeCasts S1x320000
  inb_S3x320000_S1x320000_1_0 : ∀ a, (![1, 0] : Fin 2 → Nat) a + S1x320000.size a ≤ S3x320000.size a
  inb_S3x320000_S1x320000_2_0 : ∀ a, (![2, 0] : Fin 2 → Nat) a + S1x320000.size a ≤ S3x320000.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x320000.size a ≤ S4x8000000.size a
  hwx0_0 : ∀ i : grid0.Coords, EltTy.bits .f32 = 32 ∨ (Rect.block (s := S4x8000000) S4x320000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x320000.size a ≤ S3x8000000.size a
  hwx0_1 : ∀ i : grid0.Coords, EltTy.bits .i32 = 32 ∨ (Rect.block (s := S3x8000000) S3x320000.size (cc0_transform_1 i) (hinb0_1 i)).WholeWords (EltTy.packing .i32)

variable [Facts₀]

abbrev win0_0 : Pipeline.Window sig grid0 :=
  Pipeline.Window.ofSpec (Memref.whole main_v0) S4x320000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x320000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8000000x4 : Shape := ⟨2, ![8000000, 4]⟩
abbrev S3 : Shape := ⟨1, ![3]⟩
abbrev S8000000x3 : Shape := ⟨2, ![8000000, 3]⟩
abbrev S1x3 : Shape := ⟨2, ![1, 3]⟩
abbrev S_ : Shape := ⟨0, ![]⟩
abbrev S8000000 : Shape := ⟨1, ![8000000]⟩
abbrev S8000000x1 : Shape := ⟨2, ![8000000, 1]⟩
abbrev S3x8000000 : Shape := ⟨2, ![3, 8000000]⟩

abbrev nBuf : Space → Nat
  | .hbm => 28
  | .vmem => 0
  | .smem => 0
  | _ => 0

abbrev bufTy : (tb : Table) → Fin (tcTables nBuf tb) → BufTy
  | .hbm, ⟨0, _⟩ => ⟨S8000000x4, .f32⟩
  | .hbm, ⟨1, _⟩ => ⟨S3, .f32⟩
  | .hbm, ⟨2, _⟩ => ⟨S3, .f32⟩
  | .hbm, ⟨3, _⟩ => ⟨S3, .i32⟩
  | .hbm, ⟨4, _⟩ => ⟨S8000000x3, .f32⟩
  | .hbm, ⟨5, _⟩ => ⟨S1x3, .f32⟩
  | .hbm, ⟨6, _⟩ => ⟨S8000000x3, .f32⟩
  | .hbm, ⟨7, _⟩ => ⟨S8000000x3, .f32⟩
  | .hbm, ⟨8, _⟩ => ⟨S1x3, .f32⟩
  | .hbm, ⟨9, _⟩ => ⟨S8000000x3, .f32⟩
  | .hbm, ⟨10, _⟩ => ⟨S8000000x3, .f32⟩
  | .hbm, ⟨11, _⟩ => ⟨S8000000x3, .f32⟩
  | .hbm, ⟨12, _⟩ => ⟨S8000000x3, .i32⟩
  | .hbm, ⟨13, _⟩ => ⟨S_, .i32⟩
  | .hbm, ⟨14, _⟩ => ⟨S8000000x3, .i32⟩
  | .hbm, ⟨15, _⟩ => ⟨S8000000x3, .i1⟩
  | .hbm, ⟨16, _⟩ => ⟨S1x3, .i32⟩
  | .hbm, ⟨17, _⟩ => ⟨S8000000x3, .i32⟩
  | .hbm, ⟨18, _⟩ => ⟨S8000000x3, .i1⟩
  | .hbm, ⟨19, _⟩ => ⟨S8000000x3, .i1⟩
  | .hbm, ⟨20, _⟩ => ⟨S_, .i1⟩
  | .hbm, ⟨21, _⟩ => ⟨S8000000, .i1⟩
  | .hbm, ⟨22, _⟩ => ⟨S8000000x1, .i1⟩
  | .hbm, ⟨23, _⟩ => ⟨S_, .i32⟩
  | .hbm, ⟨24, _⟩ => ⟨S8000000x3, .i1⟩
  | .hbm, ⟨25, _⟩ => ⟨S8000000x3, .i32⟩
  | .hbm, ⟨26, _⟩ => ⟨S8000000x3, .i32⟩
  | .hbm, ⟨27, _⟩ => ⟨S3x8000000, .i32⟩
  | _, _ => ⟨S8000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  slices_S8000000x4_S8000000x3_0_0 : S8000000x4.Slices ![0, 0] S8000000x3
  bcast_S3_S1x3_1 : S3.BroadcastsInDim S1x3 (![1] : Fin 1 → Fin S1x3.rank)
  bcast_S1x3_S8000000x3_0_1 : S1x3.BroadcastsInDim S8000000x3 (![0, 1] : Fin 2 → Fin S8000000x3.rank)
  bcast_S_S8000000x3 : S_.BroadcastsInDim S8000000x3 (![] : Fin 0 → Fin S8000000x3.rank)
  reducesTo_S8000000x3_S8000000_d1 : S8000000x3.ReducesTo [1] S8000000
  h_S_ : 0 < S_.numel
  bcast_S8000000_S8000000x1_0 : S8000000.BroadcastsInDim S8000000x1 (![0] : Fin 1 → Fin S8000000x1.rank)
  bcast_S8000000x1_S8000000x3_0_1 : S8000000x1.BroadcastsInDim S8000000x3 (![0, 1] : Fin 2 → Fin S8000000x3.rank)
  transposes_S8000000x3_S3x8000000_1_0 : S8000000x3.Transposes [1, 0] S3x8000000

variable [Facts₀]

class Facts : Prop extends Facts₀ where

variable [Facts]
-- ==== Proof.Spec.lean ====
/-
  Binning a cloud of points into a regular grid of voxels, as ONE function of the points array.

  A point has three coordinates (and a fourth attribute that plays no part). Along axis `j` the grid starts at
  `lo j`, its voxels are `width j` wide and there are `extent j` of them. The cell of a coordinate `x` along
  axis `j` is `floor ((x - lo j) / width j)`, read as a 32-bit signed integer; a point is inside the grid when each
  of its three cells is at least zero and below the extent of its axis. The voxel of a point is the triple of its
  cells when the point is inside, and the triple (-1, -1, -1) when it is not. The result array holds, in row `j`
  and column `n`, component `j` of the voxel of point `n`.

  The only algebra here is on single bits: the six comparisons of a point may be combined by "and" in any grouping,
  and a fold of "and" over the three axes, from the bit one, is the conjunction of its three terms.
-/
import Idealize.ShloMosaic.PureOps.Ideal
import Idealize.ShloMosaic.PureOps.Reduce
import Idealize.ShloMosaic.Lib.ValueIdx

noncomputable section

namespace Cert.Voxel

open Idealize.ShloMosaic Idealize.ShloMosaic.ValueIdx

/-- The lower corner of the grid, one float word per axis: 0, -40, -3. -/
def lo : Fin 3 → BitVec 32 := fun j => match j with
  | ⟨0, _⟩ => 0x00000000#32 | ⟨1, _⟩ => 0xC2200000#32 | ⟨2, _⟩ => 0xC0400000#32

/-- The width of a voxel, one float word per axis: the floats nearest 0.05, 0.05 and 0.1. -/
def width : Fin 3 → BitVec 32 := fun j => match j with
  | ⟨0, _⟩ => 0x3D4CCCCD#32 | ⟨1, _⟩ => 0x3D4CCCCD#32 | ⟨2, _⟩ => 0x3DCCCCCD#32

/-- The number of voxels along each axis. -/
def extent : Fin 3 → BitVec 32 := fun j => match j with
  | ⟨0, _⟩ => 1408#32 | ⟨1, _⟩ => 1600#32 | ⟨2, _⟩ => 40#32

/-- The cell of coordinate `x` along axis `j`: `floor ((x - lo j) / width j)` as a 32-bit signed integer. -/
def cell (j : Fin 3) (x : Ideal .f32) : BitVec 32 :=
  FloatOps.fptosi (F := Ideal) (φ := .f32) 32
    (FloatOps.floor (F := Ideal) (φ := .f32)
      (FloatOps.divf (F := Ideal) (φ := .f32)
        (FloatOps.subf (F := Ideal) (φ := .f32) x (FloatOps.ofBits (F := Ideal) .f32 (lo j)))
        (FloatOps.ofBits (F := Ideal) .f32 (width j))))

/-- Coordinate `x` falls inside the grid along axis `j`: its cell is at least zero and below the extent. -/
def inside (j : Fin 3) (x : Ideal .f32) : BitVec 1 :=
  IntOp.andi (IntOp.cmpi .sge (cell j x) 0#32) (IntOp.cmpi .slt (cell j x) (extent j))

/-- The point with coordinates `p` is inside the grid along all three axes. -/
def valid (p : Fin 3 → Ideal .f32) : BitVec 1 :=
  IntOp.andi (IntOp.andi (inside 0 (p 0)) (inside 1 (p 1))) (inside 2 (p 2))

/-- Component `j` of the voxel of the point with coordinates `p`: its cell along `j` when the point is inside the
    grid, and -1 when it is not. -/
def voxel (p : Fin 3 → Ideal .f32) (j : Fin 3) : BitVec 32 :=
  Scalar.select (valid p) (cell j (p j)) 4294967295#32

/-- Three coordinates as a function of the axis. -/
def tri (a b c : Ideal .f32) : Fin 3 → Ideal .f32 := fun k => match k with
  | ⟨0, _⟩ => a | ⟨1, _⟩ => b | ⟨2, _⟩ => c

/-- The three coordinates of point `n` of a points array (its fourth entry is not read). -/
def coords (P : (⟨2, ![8000000, 4]⟩ : Shape).Idx → Ideal .f32) (n : Fin 8000000) : Fin 3 → Ideal .f32 :=
  fun k => P (ix2 n (Fin.castSucc k))

/-- THE RESULT: row `j`, column `n` holds component `j` of the voxel of point `n`. -/
def bins (P : (⟨2, ![8000000, 4]⟩ : Shape).Idx → Ideal .f32) : (⟨2, ![3, 8000000]⟩ : Shape).Idx → BitVec 32 :=
  fun i => voxel (coords P (i 1)) (i 0)

theorem bins_apply (P : (⟨2, ![8000000, 4]⟩ : Shape).Idx → Ideal .f32) (j : Fin 3) (n : Fin 8000000) :
    bins P (ix2 j n) = voxel (coords P n) j := rfl

/-! ## Conjunctions of single bits -/

/-- Six bits combined by "and" one after the other are the three pairs combined. -/
theorem and_chain (a0 b0 a1 b1 a2 b2 : BitVec 1) :
    IntOp.andi (IntOp.andi (IntOp.andi (IntOp.andi (IntOp.andi a0 b0) a1) b1) a2) b2
      = IntOp.andi (IntOp.andi (IntOp.andi a0 b0) (IntOp.andi a1 b1)) (IntOp.andi a2 b2) := by
  simp only [IntOp.andi, BitVec.and_assoc]

/-- The fold of "and" over the three axes, from the bit one, is the conjunction of the three terms. -/
theorem fold_and_three (f : Fin 3 → BitVec 1) :
    (Finset.univ : Finset (Fin 3)).fold IntOp.andi 1#1 f = IntOp.andi (IntOp.andi (f 0) (f 1)) (f 2) := by
  have hu : (Finset.univ : Finset (Fin 3)) = {0, 1, 2} := by decide
  rw [hu, Finset.fold_insert (by decide), Finset.fold_insert (by decide), Finset.fold_singleton]
  generalize f 0 = a; generalize f 1 = b; generalize f 2 = c
  revert a b c; decide

end Cert.Voxel

end
-- ==== Proof.KernelBlock.lean ====
/-
  One grid point of the kernel: what its three row stores leave in the output block, as one function of the input
  block.

  The input block has four rows (the three coordinates and the unread attribute) and 320000 columns, one column per
  point; the output block has three rows and the same columns. Row `j` of the output block is stored whole, and
  column `p` of it is component `j` of the voxel of the point whose coordinates are column `p` of rows 0, 1, 2
  of the input block. The body computes the six range tests one after the other and combines them by "and" in that
  order; the specification groups them per axis (`Cert.Voxel.and_chain`). A row is loaded as a [1, 320000] slab,
  viewed flat while it is computed on, and viewed as a slab again to be stored: the two views cancel lane by lane.
-/
import proofs.«146010_j59820304498936_1_alg».proof.Proof.Gen.KernelIdeal.Frame
import proofs.«146010_j59820304498936_1_alg».proof.Proof.Spec
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Voxel

/-- A slab index is its flat part under the unit leading coordinate. -/
theorem slab_index (x : S1x320000.Idx) :
    (Fin.cons (⟨0, Nat.one_pos⟩ : Fin 1) (fun a : Fin 1 => x a.succ) : S1x320000.Idx) = x := by
  funext a
  match a with
  | ⟨0, _⟩ => exact Fin.ext (by have h1 : (x 0).val < 1 := (x 0).isLt; show 0 = (x 0).val; omega)
  | ⟨1, _⟩ => rfl

/-- A slab viewed flat, read at the flat part of a slab index, is the slab at that index. -/
theorem flat_lane (v : Vec Ideal S1x320000 .f32) (x : S1x320000.Idx) :
    shapeCast S320000 v shapeCasts_S1x320000_S320000 (fun a : Fin 1 => x a.succ) = v x :=
  (shapeCast_dropUnit_apply ![320000] v _ _).trans (congrArg v (slab_index x))

/-- The cells the body computes, lane by lane: the specification's, of the flat view of the loaded row. -/
theorem cell0_lane (v : Vec Ideal S1x320000 .f32) (q : S320000.Idx) :
    k0_pay4 (F := Ideal) v q = cell 0 (shapeCast S320000 v shapeCasts_S1x320000_S320000 q) := rfl
theorem cell1_lane (v : Vec Ideal S1x320000 .f32) (q : S320000.Idx) :
    k0_pay5 (F := Ideal) v q = cell 1 (shapeCast S320000 v shapeCasts_S1x320000_S320000 q) := rfl
theorem cell2_lane (v : Vec Ideal S1x320000 .f32) (q : S320000.Idx) :
    k0_pay6 (F := Ideal) v q = cell 2 (shapeCast S320000 v shapeCasts_S1x320000_S320000 q) := rfl

/-- The body's six range tests, combined in its order, are the point's validity. -/
theorem valid_lane (v0 v2 v4 : Vec Ideal S1x320000 .f32) (q : S320000.Idx) :
    k0_pay7 (F := Ideal) v0 v2 v4 q
      = valid (tri (shapeCast S320000 v0 shapeCasts_S1x320000_S320000 q)
          (shapeCast S320000 v2 shapeCasts_S1x320000_S320000 q)
          (shapeCast S320000 v4 shapeCasts_S1x320000_S320000 q)) :=
  and_chain _ _ _ _ _ _

/-- Row 0 of the output block at a flat lane: the select of the point's validity between its cell along axis 0 and -1. -/
theorem row0_flat (v0 v2 v4 : Vec Ideal S1x320000 .f32) (q : S320000.Idx) :
    Scalar.select (k0_pay7 (F := Ideal) v0 v2 v4 q) (k0_pay4 (F := Ideal) v0 q) 4294967295#32
      = voxel (tri (shapeCast S320000 v0 shapeCasts_S1x320000_S320000 q)
          (shapeCast S320000 v2 shapeCasts_S1x320000_S320000 q)
          (shapeCast S320000 v4 shapeCasts_S1x320000_S320000 q)) 0 := by
  rw [valid_lane, cell0_lane]
  rfl

/-- Row 0 of the output block, lane by lane of the stored slab. -/
theorem row0_lane (v0 v2 v4 : Vec Ideal S1x320000 .f32) (x : S1x320000.Idx) :
    k0_pay1 (k0_pay4 (F := Ideal) v0) (k0_pay7 (F := Ideal) v0 v2 v4) x = voxel (tri (v0 x) (v2 x) (v4 x)) 0 := by
  show shapeCast S1x320000 (select (k0_pay7 (F := Ideal) v0 v2 v4) (k0_pay4 (F := Ideal) v0) (broadcast S320000 4294967295#32)) shapeCasts_S320000_S1x320000 x = _
  refine (shapeCast_addUnit_apply ![320000] _ _ x).trans ?_
  refine (row0_flat v0 v2 v4 (fun a : Fin 1 => x a.succ)).trans ?_
  exact congrArg (fun p => voxel p 0) (congr (congr (congrArg tri (flat_lane v0 x)) (flat_lane v2 x)) (flat_lane v4 x))

/-- Row 1 of the output block at a flat lane: the select of the point's validity between its cell along axis 1 and -1. -/
theorem row1_flat (v0 v2 v4 : Vec Ideal S1x320000 .f32) (q : S320000.Idx) :
    Scalar.select (k0_pay7 (F := Ideal) v0 v2 v4 q) (k0_pay5 (F := Ideal) v2 q) 4294967295#32
      = voxel (tri (shapeCast S320000 v0 shapeCasts_S1x320000_S320000 q)
          (shapeCast S320000 v2 shapeCasts_S1x320000_S320000 q)
          (shapeCast S320000 v4 shapeCasts_S1x320000_S320000 q)) 1 := by
  rw [valid_lane, cell1_lane]
  rfl

/-- Row 1 of the output block, lane by lane of the stored slab. -/
theorem row1_lane (v0 v2 v4 : Vec Ideal S1x320000 .f32) (x : S1x320000.Idx) :
    k0_pay2 (k0_pay5 (F := Ideal) v2) (k0_pay7 (F := Ideal) v0 v2 v4) x = voxel (tri (v0 x) (v2 x) (v4 x)) 1 := by
  show shapeCast S1x320000 (select (k0_pay7 (F := Ideal) v0 v2 v4) (k0_pay5 (F := Ideal) v2) (broadcast S320000 4294967295#32)) shapeCasts_S320000_S1x320000 x = _
  refine (shapeCast_addUnit_apply ![320000] _ _ x).trans ?_
  refine (row1_flat v0 v2 v4 (fun a : Fin 1 => x a.succ)).trans ?_
  exact congrArg (fun p => voxel p 1) (congr (congr (congrArg tri (flat_lane v0 x)) (flat_lane v2 x)) (flat_lane v4 x))

/-- Row 2 of the output block at a flat lane: the select of the point's validity between its cell along axis 2 and -1. -/
theorem row2_flat (v0 v2 v4 : Vec Ideal S1x320000 .f32) (q : S320000.Idx) :
    Scalar.select (k0_pay7 (F := Ideal) v0 v2 v4 q) (k0_pay6 (F := Ideal) v4 q) 4294967295#32
      = voxel (tri (shapeCast S320000 v0 shapeCasts_S1x320000_S320000 q)
          (shapeCast S320000 v2 shapeCasts_S1x320000_S320000 q)
          (shapeCast S320000 v4 shapeCasts_S1x320000_S320000 q)) 2 := by
  rw [valid_lane, cell2_lane]
  rfl

/-- Row 2 of the output block, lane by lane of the stored slab. -/
theorem row2_lane (v0 v2 v4 : Vec Ideal S1x320000 .f32) (x : S1x320000.Idx) :
    k0_pay3 (k0_pay6 (F := Ideal) v4) (k0_pay7 (F := Ideal) v0 v2 v4) x = voxel (tri (v0 x) (v2 x) (v4 x)) 2 := by
  show shapeCast S1x320000 (select (k0_pay7 (F := Ideal) v0 v2 v4) (k0_pay6 (F := Ideal) v4) (broadcast S320000 4294967295#32)) shapeCasts_S320000_S1x320000 x = _
  refine (shapeCast_addUnit_apply ![320000] _ _ x).trans ?_
  refine (row2_flat v0 v2 v4 (fun a : Fin 1 => x a.succ)).trans ?_
  exact congrArg (fun p => voxel p 2) (congr (congr (congrArg tri (flat_lane v0 x)) (flat_lane v2 x)) (flat_lane v4 x))

/-! ## The block -/

/-- What a grid point leaves in its output block, as one function of its input block: row `j`, column `p` holds
    component `j` of the voxel of the point whose coordinates are column `p` of rows 0, 1, 2. -/
def blockBins (x0 : Vec Ideal S4x320000 .f32) : Vec Ideal S3x320000 .i32 :=
  fun y => voxel (fun k => x0 (ix2 (Fin.castSucc k) (y 1))) (y 0)

/-- Row `r` of the input block, loaded as a slab, read at a slab index: the block at row `r` and the slab's column. -/
theorem load_row (x0 : Vec Ideal S4x320000 .f32) (r : Fin 4) (inb : ∀ a, (![r.val, 0] : Fin 2 → Nat) a + S1x320000.size a ≤ S4x320000.size a)
    (u : Fin 1) (p : Fin 320000) :
    View.ld x0 (Rect.unit (s := S4x320000) ![r.val, 0] S1x320000.size inb) (ix2 u p) = x0 (ix2 r p) := by
  show x0 _ = x0 _
  refine congrArg x0 (funext fun a => Fin.ext ?_)
  have hu : u.val < 1 := u.isLt
  match a with
  | ⟨0, _⟩ => show r.val + 1 * u.val = r.val; omega
  | ⟨1, _⟩ => show 0 + 1 * p.val = p.val; omega

/-- Row `j` of the output block, as a slab placed in the block: slab index `(u, p)` sits at row `j`, column `p`. -/
theorem store_row (j : Fin 3) (inb : ∀ a, (![j.val, 0] : Fin 2 → Nat) a + S1x320000.size a ≤ S3x320000.size a)
    (u : Fin 1) (p : Fin 320000) :
    (Rect.unit (s := S3x320000) ![j.val, 0] S1x320000.size inb).emb (ix2 u p) = ix2 j p := by
  refine funext fun a => Fin.ext ?_
  have hu : u.val < 1 := u.isLt
  match a with
  | ⟨0, _⟩ => show j.val + 1 * u.val = j.val; omega
  | ⟨1, _⟩ => show 0 + 1 * p.val = p.val; omega

/-- The three coordinates read off the three loaded rows are the three coordinate rows of the block. -/
theorem tri_rows (x0 : Vec Ideal S4x320000 .f32) (p : Fin 320000) :
    tri (x0 (ix2 (0 : Fin 4) p)) (x0 (ix2 (1 : Fin 4) p)) (x0 (ix2 (2 : Fin 4) p)) = fun k : Fin 3 => x0 (ix2 (Fin.castSucc k) p) := by
  funext k
  match k with
  | ⟨0, _⟩ => rfl
  | ⟨1, _⟩ => rfl
  | ⟨2, _⟩ => rfl

/-- THE BLOCK: the three row stores, each the block function restricted to its row, leave the block function. -/
theorem out_eq (x0 : Vec Ideal S4x320000 .f32) : out0_1 (F := Ideal) x0 = blockBins x0 := by
  funext y
  unfold out0_1
  refine View.canon_apply_of_pieces (blockBins x0) _ ?_ y (cover0_1 _ _ _ y)
  intro pc hpc x
  simp only [List.mem_cons, List.not_mem_nil, or_false] at hpc
  rcases hpc with rfl | rfl | rfl
  · obtain ⟨u, p, rfl⟩ : ∃ (u : Fin 1) (p : Fin 320000), x = ix2 u p := ⟨x 0, x 1, eq_ix2 x⟩
    refine (row2_lane _ _ _ _).trans ?_
    have l0 : View.ld x0 r0_0 (ix2 u p) = x0 (ix2 (0 : Fin 4) p) := load_row x0 0 _ u p
    have l1 : View.ld x0 r0_1 (ix2 u p) = x0 (ix2 (1 : Fin 4) p) := load_row x0 1 _ u p
    have l2 : View.ld x0 r0_2 (ix2 u p) = x0 (ix2 (2 : Fin 4) p) := load_row x0 2 _ u p
    have s : r0_5.emb (ix2 u p) = ix2 (2 : Fin 3) p := store_row 2 _ u p
    show voxel (tri (View.ld x0 r0_0 (ix2 u p)) (View.ld x0 r0_1 (ix2 u p)) (View.ld x0 r0_2 (ix2 u p))) 2 = blockBins x0 (r0_5.emb (ix2 u p))
    rw [l0, l1, l2, s, tri_rows]
    rfl
  · obtain ⟨u, p, rfl⟩ : ∃ (u : Fin 1) (p : Fin 320000), x = ix2 u p := ⟨x 0, x 1, eq_ix2 x⟩
    refine (row1_lane _ _ _ _).trans ?_
    have l0 : View.ld x0 r0_0 (ix2 u p) = x0 (ix2 (0 : Fin 4) p) := load_row x0 0 _ u p
    have l1 : View.ld x0 r0_1 (ix2 u p) = x0 (ix2 (1 : Fin 4) p) := load_row x0 1 _ u p
    have l2 : View.ld x0 r0_2 (ix2 u p) = x0 (ix2 (2 : Fin 4) p) := load_row x0 2 _ u p
    have s : r0_4.emb (ix2 u p) = ix2 (1 : Fin 3) p := store_row 1 _ u p
    show voxel (tri (View.ld x0 r0_0 (ix2 u p)) (View.ld x0 r0_1 (ix2 u p)) (View.ld x0 r0_2 (ix2 u p))) 1 = blockBins x0 (r0_4.emb (ix2 u p))
    rw [l0, l1, l2, s, tri_rows]
    rfl
  · obtain ⟨u, p, rfl⟩ : ∃ (u : Fin 1) (p : Fin 320000), x = ix2 u p := ⟨x 0, x 1, eq_ix2 x⟩
    refine (row0_lane _ _ _ _).trans ?_
    have l0 : View.ld x0 r0_0 (ix2 u p) = x0 (ix2 (0 : Fin 4) p) := load_row x0 0 _ u p
    have l1 : View.ld x0 r0_1 (ix2 u p) = x0 (ix2 (1 : Fin 4) p) := load_row x0 1 _ u p
    have l2 : View.ld x0 r0_2 (ix2 u p) = x0 (ix2 (2 : Fin 4) p) := load_row x0 2 _ u p
    have s : r0_3.emb (ix2 u p) = ix2 (0 : Fin 3) p := store_row 0 _ u p
    show voxel (tri (View.ld x0 r0_0 (ix2 u p)) (View.ld x0 r0_1 (ix2 u p)) (View.ld x0 r0_2 (ix2 u p))) 0 = blockBins x0 (r0_3.emb (ix2 u p))
    rw [l0, l1, l2, s, tri_rows]
    rfl

end Cert.KernelIdeal.Block

end
-- ==== Proof.KernelArray.lean ====
/-
  From blocks to the array: what the kernel's result array holds after the run, as one function of the points array.

  The region finds the points array transposed (four rows, one column per point: the one host operation before the
  region). The grid has 25 points; point `t` reads columns `320000 t … 320000 t + 319999` of the transposed array,
  all four rows, and writes back the same columns of the three-row result. So column `p` of point `t`'s input
  block holds the coordinates of point `320000 t + p`, what point `t` writes back is its block of the voxels of
  all points, and the 25 blocks cover the result array: it ends holding the voxels of all points.
-/
import proofs.«146010_j59820304498936_1_alg».proof.Proof.Gen.KernelIdeal.Value
import proofs.«146010_j59820304498936_1_alg».proof.Proof.KernelBlock
import Idealize.ShloMosaic.Lib.StableHlo.Run

noncomputable section

namespace Cert.KernelIdeal.Arr

open Cert.KernelIdeal Cert.KernelIdeal.Gen Cert.KernelIdeal.Block Idealize.ShloMosaic Idealize.ShloMosaic.TcCoe Idealize.SL.Sem
open Idealize.ShloMosaic.StableHlo Idealize.ShloMosaic.ValueIdx Cert.Voxel
open Idealize.ShloMosaic.Pipeline (Dat)

variable (m : (ℓ : Loc nD τ sig) → Buf (Elt Ideal) ℓ) (ρ : Dev nD → PrngReg)

/-- The array the input window stages, as the region finds it: the points array transposed. -/
theorem entry_transposed (c : Dev nD) :
    (V m c main_v0 : S4x8000000.Idx → Elt Ideal .f32)
      = transpose S4x8000000 [1, 0] (m ((c : Thread nD τ).loc main_arg0) : S8000000x4.Idx → Elt Ideal .f32) transposes_S8000000x4_S4x8000000_1_0 := by
  dsimp only [Gen.V, Gen.hostOps0]
  after_results

/-- The printed index maps, decided over the grid: both windows' blocks sit at block row 0 and block column `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Row `r`, column `p` of point `t`'s input block is entry `r` of point `320000 t + p` of the points array. -/
theorem input_at (c : Dev nD) (t : Fin cfg0.N) (r : Fin 4) (p : Fin 320000) (n : Fin 8000000)
    (hn : n.val = t.val * 320000 + p.val) :
    (iblk m c 0 t : Vec Ideal S4x320000 .f32) (ix2 r p)
      = (m ((c : Thread nD τ).loc main_arg0) : S8000000x4.Idx → Elt Ideal .f32) (ix2 n r) := by
  obtain ⟨e0, e1, -, -⟩ := idx_facts t
  unfold iblk
  rw [View.read_apply]
  show V m c main_v0 _ = _
  rw [entry_transposed]
  refine transpose_apply _ _ _ _ (ix2 n r) fun b => ?_
  match b with
  | ⟨0, _⟩ => show r.val = win0_0.index t (0 : Fin 2) * 4 + 1 * r.val; rw [e0, Nat.zero_mul, Nat.zero_add, Nat.one_mul]
  | ⟨1, _⟩ => show n.val = win0_0.index t (1 : Fin 2) * 320000 + 1 * p.val; rw [e1, hn, Nat.one_mul]

/-- Row `j`, column `p` of what point `t`'s body leaves is component `j` of the voxel of point `320000 t + p`. -/
theorem point_eq (c : Dev nD) (t : Fin cfg0.N) (j : Fin 3) (p : Fin 320000) (n : Fin 8000000)
    (hn : n.val = t.val * 320000 + p.val) :
    blockBins (iblk m c 0 t) (ix2 j p)
      = bins (m ((c : Thread nD τ).loc main_arg0) : S8000000x4.Idx → Elt Ideal .f32) (ix2 j n) := by
  show voxel (fun k : Fin 3 => (iblk m c 0 t : Vec Ideal S4x320000 .f32) (ix2 (Fin.castSucc k) p)) j = voxel (coords _ n) j
  exact congrArg (fun q => voxel q j) (funext fun k => input_at m c t (Fin.castSucc k) p n hn)

/-- WHAT POINT `t` WRITES BACK is block `t` of the voxels of all points. -/
theorem flushed_eq (c : Dev nD) (t : Fin cfg0.N) :
    (dats m 0 c).flushed 1 t
      = ((cfg0.win 1).blk t).view.read (Elt Ideal) (bins (m ((c : Thread nD τ).loc main_arg0) : S8000000x4.Idx → Elt Ideal .f32)) := by
  rw [Value.flushed1, Block.out_eq]
  funext y
  have h0 : (y 0).val < 3 := (y 0).isLt
  have h1 : (y 1).val < 320000 := (y 1).isLt
  have ht : t.val < 25 := lt_of_lt_of_eq t.isLt N_0
  obtain ⟨-, -, e2, e3⟩ := idx_facts t
  have hE : ((cfg0.win 1).blk t).view.emb y
      = ix2 (⟨(y 0).val, h0⟩ : Fin 3) (⟨t.val * 320000 + (y 1).val, by omega⟩ : Fin 8000000) := by
    funext a
    apply Fin.ext
    match a with
    | ⟨0, _⟩ => show win0_1.index t (0 : Fin 2) * 3 + 1 * (y 0).val = (y 0).val; omega
    | ⟨1, _⟩ => show win0_1.index t (1 : Fin 2) * 320000 + 1 * (y 1).val = t.val * 320000 + (y 1).val; omega
  show blockBins (iblk m c 0 t) (ix2 (⟨(y 0).val, h0⟩ : Fin 3) (⟨(y 1).val, h1⟩ : Fin 320000))
    = bins (m ((c : Thread nD τ).loc main_arg0) : S8000000x4.Idx → Elt Ideal .f32) (((cfg0.win 1).blk t).view.emb y)
  exact (point_eq m c t _ _ _ rfl).trans (congrArg (bins _) hE).symm

/-- An index of the result array is in point `t`'s block iff each coordinate is in the block's range on its axis. -/
theorem mem_blk (t : Fin cfg0.N) (i : S3x8000000.Idx) :
    i ∈ ((cfg0.win 1).blk t).view.set ↔ ∀ a : Fin 2, win0_1.index t a * S3x320000.size a ≤ (i a).val ∧ (i a).val < win0_1.index t a * S3x320000.size a + S3x320000.size a := by
  show i ∈ ((View.whole main_v1).slice (win0_1.rect t)).set ↔ _
  rw [View.set_slice_whole, Rect.mem_set_unit]
  exact Iff.rfl

/-- Every index of the result array is in the block of the point that owns its column: column `n` belongs to point
    `n / 320000`. -/
theorem cover (i : S3x8000000.Idx) : ∃ t : Fin cfg0.N, (cfg0.win 1).flush t = true ∧ i ∈ ((cfg0.win 1).blk t).view.set := by
  have hi0 : (i 0).val < 3 := (i 0).isLt
  have hi1 : (i 1).val < 8000000 := (i 1).isLt
  have hN : cfg0.N = 25 := N_0
  obtain ⟨t, ht⟩ : ∃ t : Fin cfg0.N, t.val = (i 1).val / 320000 := ⟨⟨(i 1).val / 320000, by rw [hN]; omega⟩, rfl⟩
  obtain ⟨-, -, e2, e3⟩ := idx_facts t
  refine ⟨t, flush0_1 t, ?_⟩
  rw [mem_blk]
  intro a
  match a with
  | ⟨0, _⟩ => show win0_1.index t (0 : Fin 2) * 3 ≤ (i 0).val ∧ (i 0).val < win0_1.index t (0 : Fin 2) * 3 + 3; omega
  | ⟨1, _⟩ => show win0_1.index t (1 : Fin 2) * 320000 ≤ (i 1).val ∧ (i 1).val < win0_1.index t (1 : Fin 2) * 320000 + 320000; omega

/-- THE ARRAY after the run: the voxels of all points. -/
theorem final (c : Dev nD) :
    (dats m 0 c).arrAt 1 cfg0.N = bins (m ((c : Thread nD τ).loc main_arg0) : S8000000x4.Idx → Elt Ideal .f32) :=
  (dats m 0 c).arrAt_eq_of_cover 1 (bins (m ((c : Thread nD τ).loc main_arg0) : S8000000x4.Idx → Elt Ideal .f32))
    (fun t _ => flushed_eq m c t) cover

/-- The kernel's run, read: the result array at the voxels of all points, the points array unchanged. -/
theorem run : θ_run defs (onTc (τ := τ) (main (F := Ideal))) ⟨m, fun _ => 0, ρ⟩ fun r => ∀ c : Dev nD,
      r.2.mem ((c : Thread nD τ).loc main_v1) = bins (m ((c : Thread nD τ).loc main_arg0) : S8000000x4.Idx → Elt Ideal .f32)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Arr

end
-- ==== Proof.RefTerm.lean ====
/-
  What the reference program computes, as one term of the points array, named in four stages: the cell of every point
  along every axis (the coordinate less the grid's lower corner, over the voxel width, floored, converted to an
  integer), the per-axis range test (the cell is at least zero and below the grid's extent), the per-point validity
  (the fold of "and" over the three axes, from the bit one), and the result (the cells where the point is valid, -1
  where it is not, transposed to three rows). The grid's lower corner, widths and extents are the program's three
  constant tables, one entry per axis.
-/
import proofs.«146010_j59820304498936_1_alg».proof.Proof.Gen.ReferenceIdeal

noncomputable section

namespace Cert.ReferenceIdeal.Hand

open Cert.ReferenceIdeal Cert.ReferenceIdeal.Gen Idealize.ShloMosaic

variable {F : FTy → Type} [FloatOps F]

/-- The grid's lower corner, the voxel widths and the grid's extents: the program's three constant tables. -/
def lows : (⟨S3, .f32⟩ : BufTy).Contents (Elt F) := fun i => FloatOps.ofBits .f32 (lit1 (S3.rowMajor i))
def widths : (⟨S3, .f32⟩ : BufTy).Contents (Elt F) := fun i => FloatOps.ofBits .f32 (lit0 (S3.rowMajor i))
def extents : (⟨S3, .i32⟩ : BufTy).Contents (Elt F) := fun i => lit2 (S3.rowMajor i)

/-- The cell of every point along every axis: the coordinate less the lower corner, over the width, floored, as an
    integer. -/
def cells (P : (⟨S8000000x4, .f32⟩ : BufTy).Contents (Elt F)) : (⟨S8000000x3, .i32⟩ : BufTy).Contents (Elt F) :=
  fptosi 32 (Host.floor (Host.divf
    (subf (extractStridedSlice S8000000x3 ![0, 0] P slices_S8000000x4_S8000000x3_0_0)
      (broadcastInDim S8000000x3 ![0, 1] bcast_S1x3_S8000000x3_0_1 (broadcastInDim S1x3 ![1] bcast_S3_S1x3_1 (lows (F := F)))))
    (broadcastInDim S8000000x3 ![0, 1] bcast_S1x3_S8000000x3_0_1 (broadcastInDim S1x3 ![1] bcast_S3_S1x3_1 (widths (F := F))))))

/-- The range test of every point along every axis: the cell is at least zero and below the extent. -/
def insides (P : (⟨S8000000x4, .f32⟩ : BufTy).Contents (Elt F)) : (⟨S8000000x3, .i1⟩ : BufTy).Contents (Elt F) :=
  andi (cmpi .sge (cells P) (broadcastInDim S8000000x3 ![] bcast_S_S8000000x3 (constantI S_ 32 0#32)))
    (cmpi .slt (cells P) (broadcastInDim S8000000x3 ![0, 1] bcast_S1x3_S8000000x3_0_1 (broadcastInDim S1x3 ![1] bcast_S3_S1x3_1 (extents (F := F)))))

/-- The validity of every point: the fold of "and" over its three axes, from the bit one. -/
def valids (P : (⟨S8000000x4, .f32⟩ : BufTy).Contents (Elt F)) : (⟨S8000000, .i1⟩ : BufTy).Contents (Elt F) :=
  Host.reduce IntOp.andi (insides P) (constantI S_ 1 1#1) reducesTo_S8000000x3_S8000000_d1 h_S_

/-- The result: the cells where the point is valid and -1 where it is not, transposed to three rows. -/
def out (P : (⟨S8000000x4, .f32⟩ : BufTy).Contents (Elt F)) : (⟨S3x8000000, .i32⟩ : BufTy).Contents (Elt F) :=
  transpose S3x8000000 [1, 0]
    (select (broadcastInDim S8000000x3 ![0, 1] bcast_S8000000x1_S8000000x3_0_1 (broadcastInDim S8000000x1 ![0] bcast_S8000000_S8000000x1_0 (valids P)))
      (cells P) (broadcastInDim S8000000x3 ![] bcast_S_S8000000x3 (constantI S_ 32 4294967295#32)))
    transposes_S8000000x3_S3x8000000_1_0

end Cert.ReferenceIdeal.Hand

end
-- ==== Proof.RefRun.lean ====
/-
  The reference program, run: its @main is a straight line of twenty-seven host operations (three constant tables,
  the slice of the three coordinate columns, the subtraction, the quotient, the floor, the conversion to integers,
  the two comparisons and their "and", the fold of "and" over the three axes, the select against -1 — whose three
  operations are those of the function the program calls —, and the transpose), so every execution of it ends with
  the result buffer at those operations composed, as one term of the points array, and the points array unchanged.
  The composed term is the one named, stage by stage, beside this module.
-/
import proofs.«146010_j59820304498936_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, and the run -/

/-- @main's twenty-seven operations, in order; the called function's three (the two broadcasts and the select) are
    listed where it is called, over the call's own buffers. -/
abbrev ops : List (HloOp τ sig (Elt F)) :=
  [ nullary main_cst (fun i => FloatOps.ofBits .f32 (lit0 (S3.rowMajor i))),
    nullary main_cst_0 (fun i => FloatOps.ofBits .f32 (lit1 (S3.rowMajor i))),
    nullary main_c (fun i => lit2 (S3.rowMajor i)),
    unary main_arg0 main_v0 ((extractStridedSlice S8000000x3 ![0, 0] · slices_S8000000x4_S8000000x3_0_0) : (⟨S8000000x4, .f32⟩ : BufTy).Contents (Elt F) → (⟨S8000000x3, .f32⟩ : BufTy).Contents (Elt F)),
    unary main_cst_0 main_v1 (broadcastInDim S1x3 ![1] bcast_S3_S1x3_1 : (⟨S3, .f32⟩ : BufTy).Contents (Elt F) → (⟨S1x3, .f32⟩ : BufTy).Contents (Elt F)),
    unary main_v1 main_v2 (broadcastInDim S8000000x3 ![0, 1] bcast_S1x3_S8000000x3_0_1 : (⟨S1x3, .f32⟩ : BufTy).Contents (Elt F) → (⟨S8000000x3, .f32⟩ : BufTy).Contents (Elt F)),
    binary main_v0 main_v2 main_v3 (subf : (⟨S8000000x3, .f32⟩ : BufTy).Contents (Elt F) → (⟨S8000000x3, .f32⟩ : BufTy).Contents (Elt F) → (⟨S8000000x3, .f32⟩ : BufTy).Contents (Elt F)),
    unary main_cst main_v4 (broadcastInDim S1x3 ![1] bcast_S3_S1x3_1 : (⟨S3, .f32⟩ : BufTy).Contents (Elt F) → (⟨S1x3, .f32⟩ : BufTy).Contents (Elt F)),
    unary main_v4 main_v5 (broadcastInDim S8000000x3 ![0, 1] bcast_S1x3_S8000000x3_0_1 : (⟨S1x3, .f32⟩ : BufTy).Contents (Elt F) → (⟨S8000000x3, .f32⟩ : BufTy).Contents (Elt F)),
    binary main_v3 main_v5 main_v6 (Host.divf : (⟨S8000000x3, .f32⟩ : BufTy).Contents (Elt F) → (⟨S8000000x3, .f32⟩ : BufTy).Contents (Elt F) → (⟨S8000000x3, .f32⟩ : BufTy).Contents (Elt F)),
    unary main_v6 main_v7 (Host.floor : (⟨S8000000x3, .f32⟩ : BufTy).Contents (Elt F) → (⟨S8000000x3, .f32⟩ : BufTy).Contents (Elt F)),
    unary main_v7 main_v8 (fptosi 32 : (⟨S8000000x3, .f32⟩ : BufTy).Contents (Elt F) → (⟨S8000000x3, .i32⟩ : BufTy).Contents (Elt F)),
    nullary main_c_1 (constantI S_ 32 0#32),
    unary main_c_1 main_v9 (broadcastInDim S8000000x3 ![] bcast_S_S8000000x3 : (⟨S_, .i32⟩ : BufTy).Contents (Elt F) → (⟨S8000000x3, .i32⟩ : BufTy).Contents (Elt F)),
    binary main_v8 main_v9 main_v10 (cmpi .sge : (⟨S8000000x3, .i32⟩ : BufTy).Contents (Elt F) → (⟨S8000000x3, .i32⟩ : BufTy).Contents (Elt F) → (⟨S8000000x3, .i1⟩ : BufTy).Contents (Elt F)),
    unary main_c main_v11 (broadcastInDim S1x3 ![1] bcast_S3_S1x3_1 : (⟨S3, .i32⟩ : BufTy).Contents (Elt F) → (⟨S1x3, .i32⟩ : BufTy).Contents (Elt F)),
    unary main_v11 main_v12 (broadcastInDim S8000000x3 ![0, 1] bcast_S1x3_S8000000x3_0_1 : (⟨S1x3, .i32⟩ : BufTy).Contents (Elt F) → (⟨S8000000x3, .i32⟩ : BufTy).Contents (Elt F)),
    binary main_v8 main_v12 main_v13 (cmpi .slt : (⟨S8000000x3, .i32⟩ : BufTy).Contents (Elt F) → (⟨S8000000x3, .i32⟩ : BufTy).Contents (Elt F) → (⟨S8000000x3, .i1⟩ : BufTy).Contents (Elt F)),
    binary main_v10 main_v13 main_v14 (andi : (⟨S8000000x3, .i1⟩ : BufTy).Contents (Elt F) → (⟨S8000000x3, .i1⟩ : BufTy).Contents (Elt F) → (⟨S8000000x3, .i1⟩ : BufTy).Contents (Elt F)),
    nullary main_c_2 (constantI S_ 1 1#1),
    binary main_v14 main_c_2 main_v15 ((fun x v => Host.reduce IntOp.andi x v reducesTo_S8000000x3_S8000000_d1 h_S_) : (⟨S8000000x3, .i1⟩ : BufTy).Contents (Elt F) → (⟨S_, .i1⟩ : BufTy).Contents (Elt F) → (⟨S8000000, .i1⟩ : BufTy).Contents (Elt F)),
    unary main_v15 main_v16 (broadcastInDim S8000000x1 ![0] bcast_S8000000_S8000000x1_0 : (⟨S8000000, .i1⟩ : BufTy).Contents (Elt F) → (⟨S8000000x1, .i1⟩ : BufTy).Contents (Elt F)),
    nullary main_c_3 (constantI S_ 32 4294967295#32),
    unary main_v16 main_call0_v0 (broadcastInDim S8000000x3 ![0, 1] bcast_S8000000x1_S8000000x3_0_1 : (⟨S8000000x1, .i1⟩ : BufTy).Contents (Elt F) → (⟨S8000000x3, .i1⟩ : BufTy).Contents (Elt F)),
    unary main_c_3 main_call0_v1 (broadcastInDim S8000000x3 ![] bcast_S_S8000000x3 : (⟨S_, .i32⟩ : BufTy).Contents (Elt F) → (⟨S8000000x3, .i32⟩ : BufTy).Contents (Elt F)),
    ternary main_call0_v0 main_v8 main_call0_v1 main_v17 (select : (⟨S8000000x3, .i1⟩ : BufTy).Contents (Elt F) → (⟨S8000000x3, .i32⟩ : BufTy).Contents (Elt F) → (⟨S8000000x3, .i32⟩ : BufTy).Contents (Elt F) → (⟨S8000000x3, .i32⟩ : BufTy).Contents (Elt F)),
    unary main_v17 main_v18 ((transpose S3x8000000 [1, 0] · transposes_S8000000x3_S3x8000000_1_0) : (⟨S8000000x3, .i32⟩ : BufTy).Contents (Elt F) → (⟨S3x8000000, .i32⟩ : BufTy).Contents (Elt F)) ]

-- twenty-seven binds re-associated, the called function's body unfolded at its call
set_option maxRecDepth 1024 in
/-- @main is that straight line: the called function's operations are stated at its arguments' tensor types and
    carried to the buffers' own types, which at these buffers is the identity. -/
theorem main_eq (c : Dev nD) : main (F := F) c = seq ops := by
  simp only [main, fn_where.body, seq, bind_assoc, pure_bind]
  rfl

/-- After the operations the result buffer holds the composed term of the points array: each operation's result read
    at its own buffer, outermost first. -/
theorem out_eq (V : Valuation τ sig (Elt F)) :
    after ops V (main_v18 : DevRef τ sig) = out (V (main_arg0 : DevRef τ sig)) := by
  after_results_simp
  rfl

/-- No operation writes the points array. -/
theorem arg0_eq (V : Valuation τ sig (Elt F)) :
    after ops V (main_arg0 : DevRef τ sig) = V (main_arg0 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., unary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., unary_bufs_sub .., unary_bufs_sub .., binary_bufs_sub ..,
    binary_bufs_sub .., nullary_bufs_sub .., binary_bufs_sub .., unary_bufs_sub .., nullary_bufs_sub .., unary_bufs_sub ..,
    unary_bufs_sub .., ternary_bufs_sub .., unary_bufs_sub ..⟩

/-- On every device, from any memory with zero counters: every weakly fair execution of @main terminates with the
    result buffer at the composed term of the points array, and the points array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = out (m ((c.tc : Thread nD τ).loc main_arg0))
      ∧ r.2.mem ((c.tc : Thread nD τ).loc main_arg0) = m ((c.tc : Thread nD τ).loc main_arg0) :=
  (θ_run defs _ _).mono (fun _ h c => ⟨(h c main_v18).trans (out_eq _), (h c main_arg0).trans (arg0_eq _)⟩)
    (run_seq scopedRefs_eq scopedSems_eq defs main (fun _ => ops) main_eq (fun _ => ops_sub) m ρ)

end Cert.ReferenceIdeal.Hand

end
-- ==== Proof.RefValue.lean ====
/-
  The reference's term, read index by index, is the voxels of all points.

  Row `j`, column `n` of the transposed result is row `n`, column `j` of the select. A constant table broadcast first to
  one row and then down all rows reads, at row `n` and column `k`, the table's entry `k`; a per-point bit broadcast to a
  column and then across the three columns reads the point's bit; a scalar broadcast reads the scalar. So the cell at
  row `n`, column `k` is the cell of point `n`'s coordinate `k` along axis `k` (the host's quotient and floor are the
  kernel's at the extended reals, by definition), its range test is the specification's, and the fold of "and" over the
  three columns of row `n`, from the bit one, is the point's validity (`Cert.Voxel.fold_and_three`).
-/
import proofs.«146010_j59820304498936_1_alg».proof.Proof.RefTerm
import proofs.«146010_j59820304498936_1_alg».proof.Proof.Spec
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.ValueIdx Cert.Voxel

/-! ## The broadcasts and the slice, read at an index -/

/-- A table of three entries, broadcast to one row and then down all rows, reads its entry `k` at column `k`. -/
theorem table_at {α : Type} (x : S3.Idx → α) (n : Fin 8000000) (k : Fin 3) :
    broadcastInDim S8000000x3 ![0, 1] bcast_S1x3_S8000000x3_0_1 (broadcastInDim S1x3 ![1] bcast_S3_S1x3_1 x) (ix2 n k) = x (ix1 k) := by
  refine (broadcastInDim_apply _ _ _ (ix2 n k) (ix2 (0 : Fin 1) k) fun a => ?_).trans
    (broadcastInDim_apply _ _ _ (ix2 (0 : Fin 1) k) (ix1 k) fun a => ?_)
  · match a with
    | ⟨0, _⟩ => rfl
    | ⟨1, _⟩ => rfl
  · match a with
    | ⟨0, _⟩ => rfl

/-- A scalar broadcast to all rows and columns reads the scalar. -/
theorem scalar_at {w : Nat} (b : BitVec w) (i : S8000000x3.Idx) :
    broadcastInDim S8000000x3 ![] bcast_S_S8000000x3 (constantI S_ w b) i = b :=
  broadcastInDim_apply _ _ _ i ix0 fun a => a.elim0

/-- A bit per point, broadcast to a column and then across the three columns, reads the point's bit. -/
theorem column_at (x : S8000000.Idx → BitVec 1) (n : Fin 8000000) (k : Fin 3) :
    broadcastInDim S8000000x3 ![0, 1] bcast_S8000000x1_S8000000x3_0_1 (broadcastInDim S8000000x1 ![0] bcast_S8000000_S8000000x1_0 x) (ix2 n k) = x (ix1 n) := by
  refine (broadcastInDim_apply _ _ _ (ix2 n k) (ix2 n (0 : Fin 1)) fun a => ?_).trans
    (broadcastInDim_apply _ _ _ (ix2 n (0 : Fin 1)) (ix1 n) fun a => ?_)
  · match a with
    | ⟨0, _⟩ => rfl
    | ⟨1, _⟩ => rfl
  · match a with
    | ⟨0, _⟩ => rfl

/-- The slice of the three coordinate columns reads the points array at the same row and column. -/
theorem slice_at (P : S8000000x4.Idx → Ideal .f32) (n : Fin 8000000) (k : Fin 3) :
    extractStridedSlice S8000000x3 ![0, 0] P slices_S8000000x4_S8000000x3_0_0 (ix2 n k) = P (ix2 n (Fin.castSucc k)) := by
  refine extractStridedSlice_apply _ _ _ (ix2 n k) (ix2 n (Fin.castSucc k)) fun a => ?_
  match a with
  | ⟨0, _⟩ => show n.val = 0 + n.val; omega
  | ⟨1, _⟩ => show k.val = 0 + k.val; omega

/-! ## The three constant tables are the grid's -/

theorem lows_at (k : Fin 3) : lows (F := Ideal) (ix1 k) = FloatOps.ofBits (F := Ideal) .f32 (lo k) := by
  match k with
  | ⟨0, _⟩ => rfl
  | ⟨1, _⟩ => rfl
  | ⟨2, _⟩ => rfl

theorem widths_at (k : Fin 3) : widths (F := Ideal) (ix1 k) = FloatOps.ofBits (F := Ideal) .f32 (width k) := by
  match k with
  | ⟨0, _⟩ => rfl
  | ⟨1, _⟩ => rfl
  | ⟨2, _⟩ => rfl

theorem extents_at (k : Fin 3) : extents (F := Ideal) (ix1 k) = extent k := by
  match k with
  | ⟨0, _⟩ => rfl
  | ⟨1, _⟩ => rfl
  | ⟨2, _⟩ => rfl

/-! ## The stages, read at an index -/

/-- The cell at row `n`, column `k` is the cell of point `n`'s coordinate `k` along axis `k`. -/
theorem cells_at (P : S8000000x4.Idx → Ideal .f32) (n : Fin 8000000) (k : Fin 3) :
    cells (F := Ideal) P (ix2 n k) = cell k (P (ix2 n (Fin.castSucc k))) := by
  show FloatOps.fptosi (F := Ideal) (φ := .f32) 32 (FloatOps.hostUnary (F := Ideal) (φ := .f32) .floor (FloatOps.hostDivf (F := Ideal) (φ := .f32)
      (FloatOps.subf (F := Ideal) (φ := .f32) (extractStridedSlice S8000000x3 ![0, 0] P slices_S8000000x4_S8000000x3_0_0 (ix2 n k))
        (broadcastInDim S8000000x3 ![0, 1] bcast_S1x3_S8000000x3_0_1 (broadcastInDim S1x3 ![1] bcast_S3_S1x3_1 (lows (F := Ideal))) (ix2 n k)))
      (broadcastInDim S8000000x3 ![0, 1] bcast_S1x3_S8000000x3_0_1 (broadcastInDim S1x3 ![1] bcast_S3_S1x3_1 (widths (F := Ideal))) (ix2 n k)))) = _
  rw [slice_at, table_at, table_at, lows_at, widths_at]
  rfl

/-- The range test at row `n`, column `k` is that of point `n`'s coordinate `k` along axis `k`. -/
theorem insides_at (P : S8000000x4.Idx → Ideal .f32) (n : Fin 8000000) (k : Fin 3) :
    insides (F := Ideal) P (ix2 n k) = inside k (P (ix2 n (Fin.castSucc k))) := by
  show IntOp.andi (IntOp.cmpi .sge (cells (F := Ideal) P (ix2 n k)) (broadcastInDim S8000000x3 ![] bcast_S_S8000000x3 (constantI S_ 32 0#32) (ix2 n k)))
      (IntOp.cmpi .slt (cells (F := Ideal) P (ix2 n k))
        (broadcastInDim S8000000x3 ![0, 1] bcast_S1x3_S8000000x3_0_1 (broadcastInDim S1x3 ![1] bcast_S3_S1x3_1 (extents (F := Ideal))) (ix2 n k))) = _
  rw [cells_at, scalar_at, table_at, extents_at]
  rfl

/-- Row `n` with column `k` put back is the index (n, k). -/
theorem lift_at (h : S8000000x3.Reduces [1] S8000000) (n : Fin 8000000) (k : Fin 3) :
    h.lift (ix1 n) k = ix2 n k := by
  funext a
  apply Fin.ext
  match a with
  | ⟨0, _⟩ => rfl
  | ⟨1, _⟩ => rfl

/-- The validity of point `n`: the fold of "and" over its three range tests is their conjunction. -/
theorem valids_at (P : S8000000x4.Idx → Ideal .f32) (n : Fin 8000000) :
    valids (F := Ideal) P (ix1 n) = valid (coords P n) := by
  have h : S8000000x3.Reduces [1] S8000000 := by decide
  unfold valids
  rw [Host.reduce_eq_fold_single IntOp.andi _ _ _ h]
  show (Finset.univ : Finset (Fin 3)).fold IntOp.andi 1#1 (fun k => insides (F := Ideal) P (h.lift (ix1 n) k)) = _
  have e (k : Fin 3) : insides (F := Ideal) P (h.lift (ix1 n) k) = inside k (P (ix2 n (Fin.castSucc k))) :=
    (congrArg (insides (F := Ideal) P) (lift_at h n k)).trans (insides_at P n k)
  refine (fold_and_three _).trans ?_
  exact congr (congrArg IntOp.andi (congr (congrArg IntOp.andi (e 0)) (e 1))) (e 2)

/-- THE RESULT at row `j`, column `n`: component `j` of the voxel of point `n`. -/
theorem out_at (P : S8000000x4.Idx → Ideal .f32) (j : Fin 3) (n : Fin 8000000) :
    out (F := Ideal) P (ix2 j n) = voxel (coords P n) j := by
  unfold out
  refine (transpose_apply _ _ _ (ix2 j n) (ix2 n j) fun b => ?_).trans ?_
  · match b with
    | ⟨0, _⟩ => rfl
    | ⟨1, _⟩ => rfl
  · show Scalar.select
        (broadcastInDim S8000000x3 ![0, 1] bcast_S8000000x1_S8000000x3_0_1 (broadcastInDim S8000000x1 ![0] bcast_S8000000_S8000000x1_0 (valids (F := Ideal) P)) (ix2 n j))
        (cells (F := Ideal) P (ix2 n j))
        (broadcastInDim S8000000x3 ![] bcast_S_S8000000x3 (constantI S_ 32 4294967295#32) (ix2 n j)) = _
    rw [column_at, valids_at, cells_at, scalar_at]
    rfl

/-- The reference's term is the voxels of all points. -/
theorem out_eq_bins (P : S8000000x4.Idx → Ideal .f32) : out (F := Ideal) P = bins P := by
  funext i
  obtain ⟨j, n, rfl⟩ : ∃ (j : Fin 3) (n : Fin 8000000), i = ix2 j n := ⟨i 0, i 1, eq_ix2 i⟩
  rw [out_at, bins_apply]

end Cert.ReferenceIdeal.Hand

end
-- ==== Proof.lean ====
/-
  Voxel binning of a point cloud: the kernel and its reference compute the same array.

  Both programs take eight million points (three coordinates and an attribute that is not read) and produce, for
  every point, the integer cell it falls in along each of three axes of a regular grid — `floor ((x - lo) / width)`
  converted to a 32-bit integer —, or the triple (-1, -1, -1) when any of the three cells is below zero or not below
  the grid's extent on its axis; the result has one row per axis and one column per point (`Cert.Voxel.bins`,
  Proof/Spec.lean).

  The kernel transposes the points first, so that a grid point of its launch reads a block of 320000 consecutive
  points as columns and writes the same columns of the result; its body computes the three rows of cells, the six range
  tests combined by "and" one after the other, and three selects. Row by row and lane by lane that is the voxel of the
  block's column (Proof/KernelBlock.lean); the 25 blocks cover the result array, so after the run it holds the voxels
  of all points (Proof/KernelArray.lean, over the generated run of the launch).

  The reference slices the three coordinate columns, subtracts, divides, floors and converts whole arrays at once,
  tests the ranges per axis, folds "and" over the three axes, selects against -1 and transposes last. Its run is its
  twenty-seven host operations composed (Proof/RefRun.lean, over Proof/RefTerm.lean), and read at an index that term
  is the same voxel (Proof/RefValue.lean).

  The two sides apply the same operations with the same constants to the same coordinate: at the extended reals the
  host's quotient and floor are the kernel's by definition, the conversion to integers is one function, and what
  remains is the grouping of six single-bit conjunctions and the order of a transpose and a pointwise map. No law of
  arithmetic that could fail at an infinity is used, so the precondition (every input finite) is never opened. The
  kernel's idealization rewrote nothing, so there is nothing to preserve.
-/
import proofs.«146010_j59820304498936_1_alg».proof.Defs
import proofs.«146010_j59820304498936_1_alg».proof.Proof.Gen.Kernel
import proofs.«146010_j59820304498936_1_alg».proof.Proof.Gen.Kernel.Skeleton
import proofs.«146010_j59820304498936_1_alg».proof.Proof.Gen.Kernel.Launch
import proofs.«146010_j59820304498936_1_alg».proof.Proof.Gen.Kernel.Points
import proofs.«146010_j59820304498936_1_alg».proof.Proof.Gen.Kernel.Frame
import proofs.«146010_j59820304498936_1_alg».proof.Proof.Gen.KernelIdeal
import proofs.«146010_j59820304498936_1_alg».proof.Proof.Gen.KernelIdeal.Skeleton
import proofs.«146010_j59820304498936_1_alg».proof.Proof.Gen.KernelIdeal.Launch
import proofs.«146010_j59820304498936_1_alg».proof.Proof.Gen.KernelIdeal.Points
import proofs.«146010_j59820304498936_1_alg».proof.Proof.Gen.KernelIdeal.Frame
import proofs.«146010_j59820304498936_1_alg».proof.Proof.Gen.KernelIdeal.Value
import proofs.«146010_j59820304498936_1_alg».proof.Proof.Gen.ReferenceIdeal
import proofs.«146010_j59820304498936_1_alg».proof.Proof.Gen.Pre_finite_inputs
import proofs.«146010_j59820304498936_1_alg».proof.Proof.KernelArray
import proofs.«146010_j59820304498936_1_alg».proof.Proof.RefRun
import proofs.«146010_j59820304498936_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves the points array as it found it. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference runs and leaves the points array as it found it: its run, with the result forgotten. -/
theorem frame_reference_ideal : Cert.frame_ReferenceIdeal := fun m ρ _ =>
  (θ_run Cert.ReferenceIdeal.defs _ _).mono (fun _ h c => (h c).2) (Cert.ReferenceIdeal.Hand.run (F := Ideal) m ρ)

/-- The idealization rewrote no operation of the kernel. -/
theorem preserves : Cert.preserves_Kernel_KernelIdeal := trivial

/-- From memories that agree on the points array, the kernel's result array and the reference's both end at the voxels
    of all points. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Hand.run (F := Ideal) m' ρ')
  rw [hagree c]
  exact Cert.ReferenceIdeal.Hand.out_eq_bins _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
